-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x512 : Shape := ⟨2, ![256, 512]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x256 .f32) (main_arg1 : FVec F S256x512 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S2048x256 : Shape := ⟨2, ![2048, 256]⟩
abbrev S256x512 : Shape := ⟨2, ![256, 512]⟩
abbrev S_ : Shape := ⟨0, ![]⟩
abbrev S512 : Shape := ⟨1, ![512]⟩
abbrev S1x512 : Shape := ⟨2, ![1, 512]⟩
abbrev S2048x512 : Shape := ⟨2, ![2048, 512]⟩
abbrev S512x256 : Shape := ⟨2, ![512, 256]⟩
abbrev S512x512 : Shape := ⟨2, ![512, 512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S256x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S2048x512, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x512_S512_d0 : S256x512.ReducesTo [0] S512
  h_S_ : 0 < S_.numel
  bcast_S512_S1x512_1 : S512.BroadcastsInDim S1x512 (![1] : Fin 1 → Fin S1x512.rank)
  inb_S512x256_S512x256_0_0 : ∀ a, (![0, 0] : Fin 2 → Nat) a + S512x256.size a ≤ S512x256.size a
  h_S512x256 : 0 < S512x256.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x256_S512 : S512x256.Reduces [1] S512
  shapeCasts_S512_S512x1 : S512.ShapeCasts S512x1
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x512.size a
  hwx0_3 : ∀ i : grid0.Coords, EltTy.bits .f32 = 32 ∨ (Rect.block (s := S2048x512) S512x512.size (cc0_transform_3 i) (hinb0_3 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x512 : Shape := ⟨2, ![256, 512]⟩
abbrev S2048x256x1 : Shape := ⟨3, ![2048, 256, 1]⟩
abbrev S1x256x512 : Shape := ⟨3, ![1, 256, 512]⟩
abbrev S2048x256x512 : Shape := ⟨3, ![2048, 256, 512]⟩
abbrev S_ : Shape := ⟨0, ![]⟩
abbrev S2048x512 : Shape := ⟨2, ![2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S2048x256x1, .f32⟩
  | .hbm, ⟨3, _⟩ => ⟨S1x256x512, .f32⟩
  | .hbm, ⟨4, _⟩ => ⟨S2048x256x512, .f32⟩
  | .hbm, ⟨5, _⟩ => ⟨S2048x256x512, .f32⟩
  | .hbm, ⟨6, _⟩ => ⟨S2048x256x512, .f32⟩
  | .hbm, ⟨7, _⟩ => ⟨S2048x256x512, .f32⟩
  | .hbm, ⟨8, _⟩ => ⟨S_, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S2048x256_S2048x256x1_0_1 : S2048x256.BroadcastsInDim S2048x256x1 (![0, 1] : Fin 2 → Fin S2048x256x1.rank)
  bcast_S256x512_S1x256x512_1_2 : S256x512.BroadcastsInDim S1x256x512 (![1, 2] : Fin 2 → Fin S1x256x512.rank)
  bcast_S2048x256x1_S2048x256x512_0_1_2 : S2048x256x1.BroadcastsInDim S2048x256x512 (![0, 1, 2] : Fin 3 → Fin S2048x256x512.rank)
  bcast_S1x256x512_S2048x256x512_0_1_2 : S1x256x512.BroadcastsInDim S2048x256x512 (![0, 1, 2] : Fin 3 → Fin S2048x256x512.rank)
  reducesTo_S2048x256x512_S2048x512_d1 : S2048x256x512.ReducesTo [1] S2048x512
  h_S_ : 0 < S_.numel
  bcast_S_S2048x512 : S_.BroadcastsInDim S2048x512 (![] : Fin 0 → Fin S2048x512.rank)

variable [Facts₀]

class Facts : Prop extends Facts₀ where

variable [Facts]
-- ==== Proof.Distance.lean ====
/-
  The distance between a row of one matrix and a column of another, written two ways.

  Write `x_b` for row `b` of `x` (256 entries) and `w_u` for column `u` of `w` (256 entries). One side sums the
  squared differences, `Σ_k (x_b k − w_u k)²`, from the zero word; the other expands the square,
  `|x_b|² + |w_u|² − 2·⟨x_b, w_u⟩` with `|w_u|²` accumulated from the zero word. Over the reals the two agree:
  `(a − b)² = a² + b² − 2ab`, summed over `k`. Over the extended reals the expansion needs every entry to be a
  real (at an infinite entry the expanded side is `∞ − ∞`), so the law is stated for real entries: the
  coercion of the reals is pushed outside every product, difference and finite sum, and the identity is the real one.
  Both sides then take the same `max` with the same lower bound `ε` and the same square root.
-/
import Idealize.ShloMosaic.PureOps.Ideal.Laws
import Idealize.ShloMosaic.Lib.ValueIdx

noncomputable section

open scoped BigOperators

namespace Cert.Distance

open Idealize.ShloMosaic Idealize.ShloMosaic.ValueIdx

/-- The coercion of the reals into the extended reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The f32 word of `2.0` denotes the real 2. -/
theorem ofBits_two : Ideal.ofBits .f32 0x40000000#32 = ((2 : ℝ) : EReal) := by
  simp [Ideal.ofBits, Ideal.ieee, -EReal.coe_mul]; norm_num

/-- Over the reals: the squared norms less twice the inner product is the sum of the squared differences. -/
theorem expand_real {ι : Type} [Fintype ι] (a b : ι → ℝ) :
    (∑ k, a k * a k) + (∑ k, b k * b k) - 2 * ∑ k, a k * b k = ∑ k, (a k - b k) * (a k - b k) := by
  have h : ∀ k, (a k - b k) * (a k - b k) = a k * a k + b k * b k - 2 * (a k * b k) := fun k => by ring
  simp only [h, Finset.sum_sub_distrib, Finset.sum_add_distrib, ← Finset.mul_sum]

/-- The same over the extended reals, for real entries, with both accumulations started from the zero word and the
    factor 2 as its f32 word. -/
theorem expand_ereal {ι : Type} [Fintype ι] (x w : ι → EReal) (hx : ∀ k, ∃ r : ℝ, x k = (r : EReal))
    (hw : ∀ k, ∃ r : ℝ, w k = (r : EReal)) :
    ((∑ k, x k * x k) + (Ideal.ofBits .f32 0x00000000#32 + ∑ k, w k * w k))
        - Ideal.ofBits .f32 0x40000000#32 * ∑ k, x k * w k
      = Ideal.ofBits .f32 0x00000000#32 + ∑ k, (x k - w k) * (x k - w k) := by
  choose a ha using hx
  choose b hb using hw
  simp only [ha, hb, Ideal.ofBits_zero_f32, ofBits_two, zero_add]
  simp only [← EReal.coe_mul, ← EReal.coe_sub, ← coe_sum, ← EReal.coe_add]
  exact congrArg _ (expand_real a b)

/-! ## The two whole-array functions -/

/-- The sum of squared differences of row `b` of `x` and column `u` of `w`, accumulated from the zero word. -/
def sqDiff (x : (⟨2, ![2048, 256]⟩ : Shape).Idx → EReal) (w : (⟨2, ![256, 512]⟩ : Shape).Idx → EReal)
    (b : Fin 2048) (u : Fin 512) : EReal :=
  Ideal.ofBits .f32 0x00000000#32 + ∑ k : Fin 256, (x (ix2 b k) - w (ix2 k u)) * (x (ix2 b k) - w (ix2 k u))

/-- The squared norm of column `u` of `w`, accumulated from the zero word. -/
def colNorm (w : (⟨2, ![256, 512]⟩ : Shape).Idx → EReal) (u : Fin 512) : EReal :=
  Ideal.ofBits .f32 0x00000000#32 + ∑ k : Fin 256, w (ix2 k u) * w (ix2 k u)

/-- The expanded square: the row's squared norm plus the column's less twice their inner product. -/
def sqExpanded (x : (⟨2, ![2048, 256]⟩ : Shape).Idx → EReal) (w : (⟨2, ![256, 512]⟩ : Shape).Idx → EReal)
    (b : Fin 2048) (u : Fin 512) : EReal :=
  ((∑ k : Fin 256, x (ix2 b k) * x (ix2 b k)) + colNorm w u)
    - Ideal.ofBits .f32 0x40000000#32 * ∑ k : Fin 256, x (ix2 b k) * w (ix2 k u)

/-- The distance array from the sum of squared differences: `sqrt (max s ε)` at every `(b, u)`. -/
def dist (x : (⟨2, ![2048, 256]⟩ : Shape).Idx → EReal) (w : (⟨2, ![256, 512]⟩ : Shape).Idx → EReal) :
    (⟨2, ![2048, 512]⟩ : Shape).Idx → EReal :=
  fun i => Ideal.sqrt (max (sqDiff x w (i 0) (i 1)) (Ideal.ofBits .f32 0x33D6BF95#32))

/-- The distance array from the expanded square. -/
def distExpanded (x : (⟨2, ![2048, 256]⟩ : Shape).Idx → EReal) (w : (⟨2, ![256, 512]⟩ : Shape).Idx → EReal) :
    (⟨2, ![2048, 512]⟩ : Shape).Idx → EReal :=
  fun i => Ideal.sqrt (max (sqExpanded x w (i 0) (i 1)) (Ideal.ofBits .f32 0x33D6BF95#32))

/-- For real entries the two distance arrays are one. -/
theorem distExpanded_eq_dist (x : (⟨2, ![2048, 256]⟩ : Shape).Idx → EReal) (w : (⟨2, ![256, 512]⟩ : Shape).Idx → EReal)
    (hx : ∀ i, ∃ r : ℝ, x i = (r : EReal)) (hw : ∀ i, ∃ r : ℝ, w i = (r : EReal)) :
    distExpanded x w = dist x w := by
  funext i
  unfold distExpanded dist sqExpanded sqDiff colNorm
  rw [expand_ereal (fun k : Fin 256 => x (ix2 (i 0) k)) (fun k : Fin 256 => w (ix2 k (i 1)))
    (fun k => hx _) (fun k => hw _)]

end Cert.Distance

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.Finite.lean ====
/-
  The precondition read back: every entry of both argument arrays is a real.

  The precondition is the conjunction of two tests, one per argument array: `all (|a| < +∞)`. At the ideal values
  the conjunction of two one-bit flags is 1 exactly when both are, and each test, true, says every entry of its
  array lies strictly between `−∞` and `+∞`, that is, is a real number.
-/
import proofs.«128859_j38817914422094_2_alg».proof.Pre_finite_inputs
import proofs.«128859_j38817914422094_2_alg».proof.Proof.LibFiniteEntry
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- Under the precondition every entry of `x` and every entry of `w` is a real. -/
theorem real_entries [Cert.Pre_finite_inputs.Facts] (x : FVec Ideal S2048x256 .f32) (w : FVec Ideal S256x512 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := (ProofLib.Finite.andi_eq_one _ _).mp h0
  exact ⟨fun i => ProofLib.Finite.all_real_of_all_abs_lt_inf x _ (fun _ => rfl) _ _ _ ValueIdx.ix0 hx i,
    fun i => ProofLib.Finite.all_real_of_all_abs_lt_inf w _ (fun _ => rfl) _ _ _ ValueIdx.ix0 hw i⟩

end Cert.FiniteInputs

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.Payload.lean ====
/-
  What the kernel body stores, read at one entry.

  From a block of 512 rows of `x` (each of 256 entries), the whole of `w` (256 × 512) and the row `n` of the
  columns' squared norms (1 × 512), the body stores at `(p, q)`
  `sqrt (max ((|x_p|² + n_q) − 2·⟨x_p, w_q⟩) ε)`:
  the row's squared norm is a lane sum of `x·x` turned into a column and repeated along the lanes, the norms' row is
  repeated down the rows, and the inner products are one matrix product into a zero accumulator.
-/
import proofs.«128859_j38817914422094_2_alg».proof.Proof.Gen.KernelIdeal.Skeleton
import proofs.«128859_j38817914422094_2_alg».proof.Proof.LibPlainDot
import proofs.«128859_j38817914422094_2_alg».proof.Proof.LibColumn
import proofs.«128859_j38817914422094_2_alg».proof.Proof.Distance
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The lane sum of a 512 × 256 block, from the zero word, at row `p`: the sum of the row's entries. -/
theorem laneSum_apply (src : FVec Ideal S512x256 .f32) (h : S512x256.Reduces [1] S512) (hφ : FKind.Formats .f32)
    (hacc : (0x00000000#32 : BitVec 32) = 0x00000000#32) (p : Fin 512) :
    multiReduction .add [1] S512 src 0x00000000#32 h hφ hacc (ix1 p) = ∑ k : Fin 256, src (ix2 p k) := by
  refine (Ideal.multiReduction_add_single src 0x00000000#32 h hφ hacc (ix1 p)).trans ?_
  exact Finset.sum_congr rfl fun k _ => congrArg src
    (funext fun a => Fin.ext (by match a with | ⟨0, _⟩ => rfl | ⟨1, _⟩ => rfl))

/-- The stored value at `(p, q)`. -/
theorem pay_apply (v0 : FVec Ideal S512x256 .f32) (v1 : FVec Ideal S256x512 .f32) (v2 : FVec Ideal S1x512 .f32)
    (p q : Fin 512) :
    k0_pay1 (F := Ideal) v0 v1 v2 (ix2 p q)
      = Ideal.sqrt (max (((∑ k : Fin 256, v0 (ix2 p k) * v0 (ix2 p k)) + v2 (ix2 (0 : Fin 1) q))
            - Ideal.ofBits .f32 0x40000000#32 * ∑ k : Fin 256, v0 (ix2 p k) * v1 (ix2 k q))
          (Ideal.ofBits .f32 0x33D6BF95#32)) := by
  unfold k0_pay1
  show Ideal.sqrt (max ((broadcastTo S512x512 (shapeCast S512x1 (multiReduction .add [1] S512 (mulf v0 v0) 0x00000000#32
            reduces_S512x256_S512 (.inl rfl) rfl) shapeCasts_S512_S512x1) broadcasts_S512x1_S512x512 (ix2 p q)
          + broadcastTo S512x512 (shapeCast S1x512 v2 shapeCasts_S1x512_S1x512) broadcasts_S1x512_S512x512 (ix2 p q))
        - Ideal.ofBits .f32 0x40000000#32
          * matmul dot_S512x256_S256x512_S512x512_1_0_0_1_n_n (some .fp32) v0 v1 (constant S512x512 .f32 0x00000000#32) (ix2 p q))
      (Ideal.ofBits .f32 0x33D6BF95#32)) = _
  rw [Cert.Lib.Column.colBroadcast_apply, Cert.Lib.Column.col_apply, laneSum_apply, broadcastTo_1b_ab_apply,
    shapeCast_self]
  rw [show matmul dot_S512x256_S256x512_S512x512_1_0_0_1_n_n (some .fp32) v0 v1 (constant S512x512 .f32 0x00000000#32) (ix2 p q)
      = ∑ k : Fin 256, v0 (ix2 p k) * v1 (ix2 k q) from Cert.Lib.PlainDot.matmul_zero_apply (some .fp32) v0 v1 p q]
  rfl

/-- The stored value at `(p, q)` when the block's row `p` is row `b` of `x`, the second block is `w` and the third holds
    the columns' squared norms: the expanded distance of row `b` and column `q`. -/
theorem entry_eq (X : FVec Ideal S2048x256 .f32) (W : FVec Ideal S256x512 .f32)
    (v0 : FVec Ideal S512x256 .f32) (v1 : FVec Ideal S256x512 .f32) (v2 : FVec Ideal S1x512 .f32)
    (b : Fin 2048) (p q : Fin 512)
    (h0 : ∀ k : Fin 256, v0 (ix2 p k) = X (ix2 b k)) (h1 : ∀ k : Fin 256, v1 (ix2 k q) = W (ix2 k q))
    (h2 : v2 (ix2 (0 : Fin 1) q) = Cert.Distance.colNorm W q) :
    k0_pay1 (F := Ideal) v0 v1 v2 (ix2 p q) = Cert.Distance.distExpanded X W (ix2 b q) := by
  rw [pay_apply]
  simp only [h0, h1, h2]
  rfl

end Cert.KernelIdeal.Payload

end
-- ==== Proof.NormsRow.lean ====
/-
  The row of squared column norms that the host computes before the kernel runs.

  The third window's array is written by four host operations from `w`: the entrywise square, the zero word, the sum
  down the rows from that zero, and the result viewed as one row of 512 entries. At `(0, q)` it holds
  `0 + Σ_k w(k, q)²`, the squared norm of column `q` accumulated from the zero word.
-/
import proofs.«128859_j38817914422094_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.NormsRow

open Cert.KernelIdeal Cert.KernelIdeal.Gen Idealize.ShloMosaic Idealize.ShloMosaic.TcCoe Idealize.ShloMosaic.ValueIdx
open Idealize.SL.Sem Idealize.ShloMosaic.StableHlo

/-- The host's term for the norms' row, as a function of `w`. -/
def normsRow (W : FVec Ideal S256x512 .f32) : FVec Ideal S1x512 .f32 :=
  broadcastInDim S1x512 ![1] bcast_S512_S1x512_1
    (Host.reduceAdd (F := Ideal) (mulf W W) (constant (F := Ideal) S_ .f32 0x00000000#32) reducesTo_S256x512_S512_d0 h_S_)

/-- At `(0, q)` the row holds the squared norm of column `q` of `w`, accumulated from the zero word. -/
theorem normsRow_apply (W : FVec Ideal S256x512 .f32) (q : Fin 512) :
    normsRow W (ix2 (0 : Fin 1) q) = Ideal.ofBits .f32 0x00000000#32 + ∑ k : Fin 256, W (ix2 k q) * W (ix2 k q) := by
  unfold normsRow
  refine (broadcastInDim_apply _ bcast_S512_S1x512_1 _ (ix2 (0 : Fin 1) q) (ix1 q) (fun a => match a with
    | ⟨0, _⟩ => by show q.val = if (512 : Nat) = 1 then 0 else q.val; rw [if_neg (by decide)])).trans ?_
  simp only [Host.reduceAdd, Ideal.hostReduceAdd_def]
  rw [Ideal.hostReduceAdd_single reducesTo_S256x512_S512_d0 (by decide)]
  refine congrArg (_ + ·) (Finset.sum_congr rfl fun k _ => ?_)
  exact congrArg (mulf W W) (funext fun a => Fin.ext (by match a with | ⟨0, _⟩ => rfl | ⟨1, _⟩ => rfl))

variable (m : (ℓ : Loc nD τ sig) → Buf (Elt Ideal) ℓ)

/-- When the kernel is launched, the third window's array holds the norms' row of the second argument. -/
theorem V_norms (c : Dev nD) :
    (V m c main_call0_v2 : S1x512.Idx → EReal) = normsRow (m ((c : Thread nD τ).loc main_arg1)) := by
  dsimp only [V, hostOps0]
  after_results
  rfl

end Cert.KernelIdeal.NormsRow

end
-- ==== Proof.KernelValue.lean ====
/-
  The kernel's result array as one function of its two arguments.

  The grid has four points; point `t` reads rows `512·t … 512·t + 511` of `x`, the whole of `w` and the whole row of
  squared column norms, and writes rows `512·t … 512·t + 511` of the result. So entry `(p, q)` of what point `t`
  writes back is the expanded distance of row `512·t + p` of `x` and column `q` of `w`: the block written back is a
  block of ONE whole-array function. The four row blocks cover the result (row `r` lies in block `r / 512`), hence
  the result array is that function everywhere.
-/
import proofs.«128859_j38817914422094_2_alg».proof.Proof.Gen.KernelIdeal.Value
import proofs.«128859_j38817914422094_2_alg».proof.Proof.Payload
import proofs.«128859_j38817914422094_2_alg».proof.Proof.NormsRow
import proofs.«128859_j38817914422094_2_alg».proof.Proof.Distance
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Two functions on a rank-2 index set agree when they agree at every pair of coordinates. -/
theorem ext_ix2 {α : Type} {n0 n1 : Nat} {f g : (⟨2, ![n0, n1]⟩ : Shape).Idx → α}
    (h : ∀ (p : Fin n0) (q : Fin n1), f (ix2 p q) = g (ix2 p q)) : f = g :=
  funext fun j => by rw [eq_ix2 j]; exact h _ _

/-- The block indices of the four windows at a point, decided over the grid: the first argument's and the result's
    blocks move down the rows with the point, the other two stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point `t`, at `(p, k)`: the first argument at row `512·t + p`. -/
theorem xblock_apply (c : Dev nD) (t : Fin cfg0.N) (p : Fin 512) (k : Fin 256) (b : Fin 2048)
    (hb : b.val = 512 * t.val + p.val) :
    (iblk m c 0 t : FVec Ideal S512x256 .f32) (ix2 p k)
      = (m ((c : Thread nD τ).loc main_arg0) : S2048x256.Idx → EReal) (ix2 b k) := by
  obtain ⟨e0, e1, -⟩ := idx_facts t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 2) * 512 + 1 * p.val = b.val; rw [e0, hb]; omega
  | ⟨1, _⟩ => show win0_0.index t (1 : Fin 2) * 256 + 1 * k.val = k.val; rw [e1]; omega

/-- The second window's block at any point is the second argument. -/
theorem wblock_apply (c : Dev nD) (t : Fin cfg0.N) (k : Fin 256) (q : Fin 512) :
    (iblk m c 1 t : FVec Ideal S256x512 .f32) (ix2 k q)
      = (m ((c : Thread nD τ).loc main_arg1) : S256x512.Idx → EReal) (ix2 k q) := by
  obtain ⟨-, -, e0, e1, -⟩ := idx_facts t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t (0 : Fin 2) * 256 + 1 * k.val = k.val; rw [e0]; omega
  | ⟨1, _⟩ => show win0_1.index t (1 : Fin 2) * 512 + 1 * q.val = q.val; rw [e1]; omega

/-- The third window's block at any point, at `(0, q)`: the squared norm of column `q` of the second argument. -/
theorem nblock_apply (c : Dev nD) (t : Fin cfg0.N) (q : Fin 512) :
    (iblk m c 2 t : FVec Ideal S1x512 .f32) (ix2 (0 : Fin 1) q)
      = Cert.Distance.colNorm (m ((c : Thread nD τ).loc main_arg1)) q := by
  obtain ⟨-, -, -, -, e0, e1, -⟩ := idx_facts t
  refine Eq.trans ?_ (NormsRow.normsRow_apply (m ((c : Thread nD τ).loc main_arg1)) q)
  rw [← NormsRow.V_norms m c]
  unfold iblk
  rw [View.read_apply]
  show V m c main_call0_v2 _ = V m c main_call0_v2 _
  refine congrArg (V m c main_call0_v2) (funext fun a => Fin.ext ?_)
  match a with
  | ⟨0, _⟩ => show win0_2.index t (0 : Fin 2) * 1 + 1 * 0 = 0; rw [e0]
  | ⟨1, _⟩ => show win0_2.index t (1 : Fin 2) * 512 + 1 * q.val = q.val; rw [e1]; omega

/-- What point `t` writes back is block `t` of the expanded-distance array of the two arguments. -/
theorem flushed_eq (c : Dev nD) (t : Fin cfg0.N) :
    (dats m 0 c).flushed 3 t = ((cfg0.win 3).blk t).view.read (Elt Ideal)
      (Cert.Distance.distExpanded (m ((c : Thread nD τ).loc main_arg0)) (m ((c : Thread nD τ).loc main_arg1))) := by
  rw [flushed3]
  unfold out0_3
  rw [View.canon_unit_zero hz]
  simp only [View.ld_unit_zero (S := S512x256) hz, View.ld_unit_zero (S := S256x512) hz, View.ld_unit_zero (S := S1x512) hz]
  refine ext_ix2 (n0 := 512) (n1 := 512) fun p q => ?_
  have hN : cfg0.N = 4 := N_0
  have ht := t.isLt
  have hp := p.isLt
  obtain ⟨-, -, -, -, -, -, e0, e1⟩ := idx_facts t
  have hemb : ((cfg0.win 3).blk t).view.emb (ix2 p q) = ix2 (⟨512 * t.val + p.val, by omega⟩ : Fin 2048) q := by
    funext a
    apply Fin.ext
    match a with
    | ⟨0, _⟩ => show win0_3.index t (0 : Fin 2) * 512 + 1 * p.val = 512 * t.val + p.val; rw [e0]; omega
    | ⟨1, _⟩ => show win0_3.index t (1 : Fin 2) * 512 + 1 * q.val = q.val; rw [e1]; omega
  show k0_pay1 (iblk m c 0 t) (iblk m c 1 t) (iblk m c 2 t) (ix2 p q)
    = Cert.Distance.distExpanded _ _ (((cfg0.win 3).blk t).view.emb (ix2 p q))
  rw [hemb]
  exact Payload.entry_eq (m ((c : Thread nD τ).loc main_arg0)) (m ((c : Thread nD τ).loc main_arg1))
    (iblk m c 0 t) (iblk m c 1 t) (iblk m c 2 t) ⟨512 * t.val + p.val, by omega⟩ p q
    (fun k => xblock_apply m c t p k _ rfl) (fun k => wblock_apply m c t k q) (nblock_apply m c t q)

/-- An index of the result is in point `t`'s block iff each coordinate is in the block's range on its axis. -/
theorem mem_blk (t : Fin cfg0.N) (i : S2048x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0).slice (win0_3.rect t)).set ↔ _
  rw [View.set_slice_whole, Rect.mem_set_unit]
  exact Iff.rfl

/-- Every index of the result lies in the block of the point its row falls to: row `r` is in block `r / 512`. -/
theorem cover (i : S2048x512.Idx) :
    ∃ t : Fin cfg0.N, (cfg0.win 3).flush t = true ∧ i ∈ ((cfg0.win 3).blk t).view.set := by
  have hN : cfg0.N = 4 := N_0
  have hi0 : (i 0).val < 2048 := (i 0).isLt
  have hi1 : (i 1).val < 512 := (i 1).isLt
  obtain ⟨t, ht⟩ : ∃ t : Fin cfg0.N, t.val = (i 0).val / 512 := ⟨⟨(i 0).val / 512, by omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 512 ≤ (i 1).val ∧ (i 1).val < win0_3.index t (1 : Fin 2) * 512 + 512
    rw [e1]; omega

/-- The result array after the run is the expanded-distance array of the two arguments. -/
theorem final (c : Dev nD) : (dats m 0 c).arrAt 3 cfg0.N
    = Cert.Distance.distExpanded (m ((c : Thread nD τ).loc main_arg0)) (m ((c : Thread nD τ).loc main_arg1)) :=
  (dats m 0 c).arrAt_eq_of_cover 3 _ (fun t _ => flushed_eq m c t) cover

/-- The run, read: the result at the expanded-distance array, the arguments unchanged. -/
theorem run : θ_run defs (onTc (τ := τ) (main (F := Ideal))) ⟨m, fun _ => 0, ρ⟩ fun r => ∀ c : Dev nD,
      r.2.mem ((c : Thread nD τ).loc main_v0)
        = Cert.Distance.distExpanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result array as one function of its two arguments.

  The reference repeats `x` along a new last axis and `w` along a new first axis, subtracts, squares, sums over the
  middle axis from the zero word, takes the maximum with `ε` and the square root. Read at `(b, u)`, operation by
  operation, the summand at `k` is `(x(b, k) − w(k, u))²`: the result is the distance array of the sum of squared
  differences.
-/
import proofs.«128859_j38817914422094_2_alg».proof.Proof.Gen.ReferenceIdeal.Read
import proofs.«128859_j38817914422094_2_alg».proof.Proof.Distance

noncomputable section

open scoped BigOperators

namespace Cert.ReferenceIdeal.Whole

open Cert.ReferenceIdeal Cert.ReferenceIdeal.Read Idealize.ShloMosaic Idealize.ShloMosaic.ValueIdx

/-- The reference's last stage is the distance array of its two arguments. -/
theorem ref_eq (x0 : FVec Ideal S2048x256 .f32) (x1 : FVec Ideal S256x512 .f32) :
    val_main_v9 (F := Ideal) x0 x1 = Cert.Distance.dist x0 x1 := by
  funext i
  have hx : ∀ k : Fin 256, idx_main_v0 (idx_main_v2 (idx_main_v6 i k)) = ix2 (i 0) k := fun k =>
    funext fun a => Fin.ext (by match a with | ⟨0, _⟩ => rfl | ⟨1, _⟩ => rfl)
  have hw : ∀ k : Fin 256, idx_main_v1 (idx_main_v3 (idx_main_v6 i k)) = ix2 k (i 1) := fun k =>
    funext fun a => Fin.ext (by match a with | ⟨0, _⟩ => rfl | ⟨1, _⟩ => rfl)
  rw [val_main_v9_apply, val_main_v8_apply, val_main_v6_apply, val_main_v7_apply, val_main_cst_0_apply,
    val_main_cst_apply]
  simp only [val_main_v5_apply, val_main_v4_apply, val_main_v2_apply, val_main_v3_apply, val_main_v0_apply,
    val_main_v1_apply, hx, hw, Ideal.hostUnary_sqrt_def, Ideal.maximumf_def, Ideal.subf_def, Ideal.mulf_def,
    Ideal.ofBits_def]
  rfl

end Cert.ReferenceIdeal.Whole

end
-- ==== Proof.lean ====
/-
  The claim: the distance kernel against its reference.

  Both programs compute, for every row `b` of `x` and column `u` of `w`, `sqrt (max s ε)` with the same `ε` and the
  same square root. The reference's `s` is the sum over `k` of `(x(b, k) − w(k, u))²`; the kernel's is the expansion
  `|x_b|² + |w_u|² − 2·⟨x_b, w_u⟩`, the column norms computed on the host before the kernel runs and the inner
  products by one matrix product per block of 512 rows. Under the precondition every entry of both arguments is a
  real, so the expansion of the square holds entry by entry and the two result arrays are one array.

  The three frames are the programs' runs with the results dropped. Nothing was rewritten when the kernel was read at
  the ideal values, so there is nothing to preserve. For the value claim the result named is the reference's distance
  array of the kernel's arguments: the kernel ends at the expanded array, which is that one for real entries, and the
  reference ends at the distance array of its own arguments, which agree with the kernel's.
-/
import proofs.«128859_j38817914422094_2_alg».proof.Defs
import proofs.«128859_j38817914422094_2_alg».proof.Proof.Gen.Kernel
import proofs.«128859_j38817914422094_2_alg».proof.Proof.Gen.Kernel.Skeleton
import proofs.«128859_j38817914422094_2_alg».proof.Proof.Gen.Kernel.Launch
import proofs.«128859_j38817914422094_2_alg».proof.Proof.Gen.Kernel.Points
import proofs.«128859_j38817914422094_2_alg».proof.Proof.Gen.Kernel.Frame
import proofs.«128859_j38817914422094_2_alg».proof.Proof.Gen.KernelIdeal
import proofs.«128859_j38817914422094_2_alg».proof.Proof.Gen.KernelIdeal.Skeleton
import proofs.«128859_j38817914422094_2_alg».proof.Proof.Gen.KernelIdeal.Launch
import proofs.«128859_j38817914422094_2_alg».proof.Proof.Gen.KernelIdeal.Points
import proofs.«128859_j38817914422094_2_alg».proof.Proof.Gen.KernelIdeal.Frame
import proofs.«128859_j38817914422094_2_alg».proof.Proof.Gen.ReferenceIdeal
import proofs.«128859_j38817914422094_2_alg».proof.Proof.Gen.Pre_finite_inputs
import proofs.«128859_j38817914422094_2_alg».proof.Proof.Gen.KernelIdeal.Value
import proofs.«128859_j38817914422094_2_alg».proof.Proof.Gen.ReferenceIdeal.Run
import proofs.«128859_j38817914422094_2_alg».proof.Proof.Gen.ReferenceIdeal.Read
import proofs.«128859_j38817914422094_2_alg».proof.Proof.Distance
import proofs.«128859_j38817914422094_2_alg».proof.Proof.Finite
import proofs.«128859_j38817914422094_2_alg».proof.Proof.KernelValue
import proofs.«128859_j38817914422094_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments, with real entries, both programs end at the distance array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Distance.dist (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Whole.run m ρ)
    obtain ⟨hx, hw⟩ := Cert.FiniteInputs.real_entries _ _ (hpre c)
    exact Cert.Distance.distExpanded_eq_dist _ _ hx hw
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v9_eq, Cert.ReferenceIdeal.Whole.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
